-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x10000x64 : Shape := ⟨3, ![8, 10000, 64]⟩
abbrev S2x320000 : Shape := ⟨2, ![2, 320000]⟩
abbrev S320000 : Shape := ⟨1, ![320000]⟩
abbrev S3x64x64 : Shape := ⟨3, ![3, 64, 64]⟩
abbrev S64 : Shape := ⟨1, ![64]⟩
abbrev S_ : Shape := ⟨0, ![]⟩

class Facts : Prop where
  bcast_S_S8x10000x64 : S_.BroadcastsInDim S8x10000x64 (![] : Fin 0 → Fin S8x10000x64.rank)
  reducesTo_S8x10000x64_S_d0_1_2 : S8x10000x64.ReducesTo [0, 1, 2] S_
  h_S_ : 0 < S_.numel
  bcast_S_S320000 : S_.BroadcastsInDim S320000 (![] : Fin 0 → Fin S320000.rank)
  reducesTo_S320000_S_d0 : S320000.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S8x10000x64 .f32) (main_arg1 : IVec S2x320000 32) (main_arg2 : FVec F S320000 .f32) (main_arg3 : FVec F S3x64x64 .f32) (main_arg4 : FVec F S64 .f32) : IVec S_ 1 :=
  let main_v0 : FVec F S8x10000x64 .f32 := Host.absf main_arg0
  let main_cst : FVec F S_ .f32 := constant S_ .f32 0x7F800000#32
  let main_v1 : FVec F S8x10000x64 .f32 := broadcastInDim S8x10000x64 ![] bcast_S_S8x10000x64 main_cst
  let main_v2 : IVec S8x10000x64 1 := cmpf .olt main_v0 main_v1
  let main_c : IVec S_ 1 := constantI S_ 1 1#1
  let main_v3 : IVec S_ 1 := (fun x v => Host.reduce IntOp.andi x v reducesTo_S8x10000x64_S_d0_1_2 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S3x64x64 .f32 := Host.absf main_arg3
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8x10000x64 : Shape := ⟨3, ![8, 10000, 64]⟩
abbrev S2x320000 : Shape := ⟨2, ![2, 320000]⟩
abbrev S320000 : Shape := ⟨1, ![320000]⟩
abbrev S3x64x64 : Shape := ⟨3, ![3, 64, 64]⟩
abbrev S64 : Shape := ⟨1, ![64]⟩
abbrev S1x320000 : Shape := ⟨2, ![1, 320000]⟩
abbrev S_ : Shape := ⟨0, ![]⟩
abbrev S10000 : Shape := ⟨1, ![10000]⟩
abbrev S320000x1 : Shape := ⟨2, ![320000, 1]⟩
abbrev S8x320000x64 : Shape := ⟨3, ![8, 320000, 64]⟩
abbrev S1x320000x1 : Shape := ⟨3, ![1, 320000, 1]⟩
abbrev S10000x64 : Shape := ⟨2, ![10000, 64]⟩
abbrev S80000x64 : Shape := ⟨2, ![80000, 64]⟩
abbrev S1x64x64 : Shape := ⟨3, ![1, 64, 64]⟩
abbrev S64x64 : Shape := ⟨2, ![64, 64]⟩
abbrev S1x64 : Shape := ⟨2, ![1, 64]⟩
abbrev S16000x64 : Shape := ⟨2, ![16000, 64]⟩

abbrev nBuf : Space → Nat
  | .hbm => 98
  | .vmem => 12
  | .smem => 0
  | _ => 0

abbrev bufTy : (tb : Table) → Fin (tcTables nBuf tb) → BufTy
  | .hbm, ⟨0, _⟩ => ⟨S8x10000x64, .f32⟩
  | .hbm, ⟨1, _⟩ => ⟨S2x320000, .i32⟩
  | .hbm, ⟨2, _⟩ => ⟨S320000, .f32⟩
  | .hbm, ⟨3, _⟩ => ⟨S3x64x64, .f32⟩
  | .hbm, ⟨4, _⟩ => ⟨S64, .f32⟩
  | .hbm, ⟨5, _⟩ => ⟨S1x320000, .i32⟩
  | .hbm, ⟨6, _⟩ => ⟨S320000, .i32⟩
  | .hbm, ⟨7, _⟩ => ⟨S1x320000, .i32⟩
  | .hbm, ⟨8, _⟩ => ⟨S320000, .i32⟩
  | .hbm, ⟨9, _⟩ => ⟨S_, .f32⟩
  | .hbm, ⟨10, _⟩ => ⟨S10000, .f32⟩
  | .hbm, ⟨11, _⟩ => ⟨S320000x1, .i32⟩
  | .hbm, ⟨12, _⟩ => ⟨S10000, .f32⟩
  | .hbm, ⟨13, _⟩ => ⟨S_, .f32⟩
  | .hbm, ⟨14, _⟩ => ⟨S10000, .f32⟩
  | .hbm, ⟨15, _⟩ => ⟨S10000, .i1⟩
  | .hbm, ⟨16, _⟩ => ⟨S10000, .f32⟩
  | .hbm, ⟨17, _⟩ => ⟨S_, .f32⟩
  | .hbm, ⟨18, _⟩ => ⟨S_, .f32⟩
  | .hbm, ⟨19, _⟩ => ⟨S10000, .f32⟩
  | .hbm, ⟨20, _⟩ => ⟨S10000, .f32⟩
  | .hbm, ⟨21, _⟩ => ⟨S_, .i32⟩
  | .hbm, ⟨22, _⟩ => ⟨S320000, .i32⟩
  | .hbm, ⟨23, _⟩ => ⟨S320000, .i1⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S320000, .i32⟩
  | .hbm, ⟨28, _⟩ => ⟨S320000x1, .i32⟩
  | .hbm, ⟨29, _⟩ => ⟨S320000, .f32⟩
  | .hbm, ⟨30, _⟩ => ⟨S320000, .f32⟩
  | .hbm, ⟨31, _⟩ => ⟨S_, .i32⟩
  | .hbm, ⟨32, _⟩ => ⟨S320000, .i32⟩
  | .hbm, ⟨33, _⟩ => ⟨S320000, .i1⟩
  | .hbm, ⟨34, _⟩ => ⟨S_, .i32⟩
  | .hbm, ⟨35, _⟩ => ⟨S320000, .i32⟩
  | .hbm, ⟨36, _⟩ => ⟨S320000, .i32⟩
  | .hbm, ⟨37, _⟩ => ⟨S320000, .i32⟩
  | .hbm, ⟨38, _⟩ => ⟨S320000x1, .i32⟩
  | .hbm, ⟨39, _⟩ => ⟨S320000, .f32⟩
  | .hbm, ⟨40, _⟩ => ⟨S320000, .f32⟩
  | .hbm, ⟨41, _⟩ => ⟨S320000, .f32⟩
  | .hbm, ⟨42, _⟩ => ⟨S_, .i32⟩
  | .hbm, ⟨43, _⟩ => ⟨S320000, .i32⟩
  | .hbm, ⟨44, _⟩ => ⟨S320000, .i1⟩
  | .hbm, ⟨45, _⟩ => ⟨S_, .i32⟩
  | .hbm, ⟨46, _⟩ => ⟨S320000, .i32⟩
  | .hbm, ⟨47, _⟩ => ⟨S320000, .i32⟩
  | .hbm, ⟨48, _⟩ => ⟨S320000, .i32⟩
  | .hbm, ⟨49, _⟩ => ⟨S320000x1, .i32⟩
  | .hbm, ⟨50, _⟩ => ⟨S8x320000x64, .f32⟩
  | .hbm, ⟨51, _⟩ => ⟨S1x320000x1, .f32⟩
  | .hbm, ⟨52, _⟩ => ⟨S8x320000x64, .f32⟩
  | .hbm, ⟨53, _⟩ => ⟨S8x320000x64, .f32⟩
  | .hbm, ⟨54, _⟩ => ⟨S_, .f32⟩
  | .hbm, ⟨55, _⟩ => ⟨S10000x64, .f32⟩
  | .hbm, ⟨56, _⟩ => ⟨S320000x1, .i32⟩
  | .hbm, ⟨57, _⟩ => ⟨S8x10000x64, .f32⟩
  | .hbm, ⟨58, _⟩ => ⟨S8x10000x64, .f32⟩
  | .hbm, ⟨59, _⟩ => ⟨S_, .i32⟩
  | .hbm, ⟨60, _⟩ => ⟨S320000, .i32⟩
  | .hbm, ⟨61, _⟩ => ⟨S320000, .i1⟩
  | .hbm, ⟨62, _⟩ => ⟨S_, .i32⟩
  | .hbm, ⟨63, _⟩ => ⟨S320000, .i32⟩
  | .hbm, ⟨64, _⟩ => ⟨S320000, .i32⟩
  | .hbm, ⟨65, _⟩ => ⟨S320000, .i32⟩
  | .hbm, ⟨66, _⟩ => ⟨S320000x1, .i32⟩
  | .hbm, ⟨67, _⟩ => ⟨S8x320000x64, .f32⟩
  | .hbm, ⟨68, _⟩ => ⟨S1x320000x1, .f32⟩
  | .hbm, ⟨69, _⟩ => ⟨S8x320000x64, .f32⟩
  | .hbm, ⟨70, _⟩ => ⟨S8x320000x64, .f32⟩
  | .hbm, ⟨71, _⟩ => ⟨S_, .f32⟩
  | .hbm, ⟨72, _⟩ => ⟨S10000x64, .f32⟩
  | .hbm, ⟨73, _⟩ => ⟨S320000x1, .i32⟩
  | .hbm, ⟨74, _⟩ => ⟨S8x10000x64, .f32⟩
  | .hbm, ⟨75, _⟩ => ⟨S8x10000x64, .f32⟩
  | .hbm, ⟨76, _⟩ => ⟨S_, .f32⟩
  | .hbm, ⟨77, _⟩ => ⟨S8x10000x64, .f32⟩
  | .hbm, ⟨78, _⟩ => ⟨S8x10000x64, .f32⟩
  | .hbm, ⟨79, _⟩ => ⟨S8x10000x64, .f32⟩
  | .hbm, ⟨80, _⟩ => ⟨S80000x64, .f32⟩
  | .hbm, ⟨81, _⟩ => ⟨S80000x64, .bf16⟩
  | .hbm, ⟨82, _⟩ => ⟨S80000x64, .f32⟩
  | .hbm, ⟨83, _⟩ => ⟨S80000x64, .bf16⟩
  | .hbm, ⟨84, _⟩ => ⟨S80000x64, .f32⟩
  | .hbm, ⟨85, _⟩ => ⟨S80000x64, .bf16⟩
  | .hbm, ⟨86, _⟩ => ⟨S1x64x64, .f32⟩
  | .hbm, ⟨87, _⟩ => ⟨S64x64, .f32⟩
  | .hbm, ⟨88, _⟩ => ⟨S64x64, .bf16⟩
  | .hbm, ⟨89, _⟩ => ⟨S1x64x64, .f32⟩
  | .hbm, ⟨90, _⟩ => ⟨S64x64, .f32⟩
  | .hbm, ⟨91, _⟩ => ⟨S64x64, .bf16⟩
  | .hbm, ⟨92, _⟩ => ⟨S1x64x64, .f32⟩
  | .hbm, ⟨93, _⟩ => ⟨S64x64, .f32⟩
  | .hbm, ⟨94, _⟩ => ⟨S64x64, .bf16⟩
  | .hbm, ⟨95, _⟩ => ⟨S1x64, .f32⟩
  | .hbm, ⟨96, _⟩ => ⟨S80000x64, .f32⟩
  | .hbm, ⟨97, _⟩ => ⟨S8x10000x64, .f32⟩
  | .local _ .vmem, ⟨0, _⟩ => ⟨S16000x64, .bf16⟩
  | .local _ .vmem, ⟨1, _⟩ => ⟨S16000x64, .bf16⟩
  | .local _ .vmem, ⟨2, _⟩ => ⟨S16000x64, .bf16⟩
  | .local _ .vmem, ⟨3, _⟩ => ⟨S16000x64, .bf16⟩
  | .local _ .vmem, ⟨4, _⟩ => ⟨S16000x64, .bf16⟩
  | .local _ .vmem, ⟨5, _⟩ => ⟨S16000x64, .bf16⟩
  | .local _ .vmem, ⟨6, _⟩ => ⟨S64x64, .bf16⟩
  | .local _ .vmem, ⟨7, _⟩ => ⟨S64x64, .bf16⟩
  | .local _ .vmem, ⟨8, _⟩ => ⟨S64x64, .bf16⟩
  | .local _ .vmem, ⟨9, _⟩ => ⟨S1x64, .f32⟩
  | .local _ .vmem, ⟨10, _⟩ => ⟨S16000x64, .f32⟩
  | .local _ .vmem, ⟨11, _⟩ => ⟨S16000x64, .f32⟩
  | _, _ => ⟨S8x10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_8 : Ref sig .tc := ⟨.hbm, 59, rfl⟩
abbrev main_v42 : Ref sig .tc := ⟨.hbm, 60, rfl⟩
abbrev main_v43 : Ref sig .tc := ⟨.hbm, 61, rfl⟩
abbrev main_c_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000 : S_.BroadcastsInDim S10000 (![] : Fin 0 → Fin S10000.rank)
  bcast_S320000_S320000x1_0 : S320000.BroadcastsInDim S320000x1 (![0] : Fin 1 → Fin S320000x1.rank)
  bcast_S_S320000 : S_.BroadcastsInDim S320000 (![] : Fin 0 → Fin S320000.rank)
  bcast_S320000_S1x320000x1_1 : S320000.BroadcastsInDim S1x320000x1 (![1] : Fin 1 → Fin S1x320000x1.rank)
  bcast_S1x320000x1_S8x320000x64_0_1_2 : S1x320000x1.BroadcastsInDim S8x320000x64 (![0, 1, 2] : Fin 3 → Fin S8x320000x64.rank)
  bcast_S_S10000x64 : S_.BroadcastsInDim S10000x64 (![] : Fin 0 → Fin S10000x64.rank)
  bcast_S10000x64_S8x10000x64_1_2 : S10000x64.BroadcastsInDim S8x10000x64 (![1, 2] : Fin 2 → Fin S8x10000x64.rank)
  bcast_S_S8x10000x64 : S_.BroadcastsInDim S8x10000x64 (![] : Fin 0 → Fin S8x10000x64.rank)
  shapeCasts_S8x10000x64_S80000x64 : S8x10000x64.ShapeCasts S80000x64
  bitsLt_bf16_f32 : FTy.bits .bf16 < FTy.bits .f32
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  shapeCasts_S64_S1x64 : S64.ShapeCasts S1x64
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  shapeCasts_S80000x64_S8x10000x64 : S80000x64.ShapeCasts S8x10000x64
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  gather_S8x10000x64_S320000x1_S8x320000x64_02_1_n_n_1_1_8164_wf : GatherDims.WF S8x10000x64 S320000x1 S8x320000x64 [0, 2] [1] [] [1] [] 1 ![8, 1, 64]
  scatter_S8x10000x64_S320000x1_S8x320000x64_02_1_1_1_wf : ScatterDims.WF S8x10000x64 S320000x1 S8x320000x64 [0, 2] [1] [1] 1
  dot_S16000x64_S64x64_S16000x64_1_0_0_1_n_n_wf : DotDims.WF S16000x64 S64x64 S16000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S80000x64.size a
  hwx0_0 : ∀ i : grid0.Coords, EltTy.bits .bf16 = 32 ∨ (Rect.block (s := S80000x64) S16000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x64.size a ≤ S80000x64.size a
  hwx0_1 : ∀ i : grid0.Coords, EltTy.bits .bf16 = 32 ∨ (Rect.block (s := S80000x64) S16000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x64.size a ≤ S80000x64.size a
  hwx0_2 : ∀ i : grid0.Coords, EltTy.bits .bf16 = 32 ∨ (Rect.block (s := S80000x64) S16000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16000x64.size a ≤ S80000x64.size a
  hwx0_7 : ∀ i : grid0.Coords, EltTy.bits .f32 = 32 ∨ (Rect.block (s := S80000x64) S16000x64.size (cc0_transform_7 i) (hinb0_7 i)).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def gather_S8x10000x64_S320000x1_S8x320000x64_02_1_n_n_1_1_8164 : GatherDims S8x10000x64 S320000x1 S8x320000x64 where
  offsetDims := [0, 2]
  collapsedSliceDims := [1]
  operandBatchingDims := []
  startIndicesBatchingDims := []
  startIndexMap := [1]
  indexVectorDim := 1
  sliceSizes := ![8, 1, 64]
  wf := gather_S8x10000x64_S320000x1_S8x320000x64_02_1_n_n_1_1_8164_wf
def scatter_S8x10000x64_S320000x1_S8x320000x64_02_1_1_1 : ScatterDims S8x10000x64 S320000x1 S8x320000x64 where
  updateWindowDims := [0, 2]
  insertedWindowDims := [1]
  scatterDimsToOperandDims := [1]
  indexVectorDim := 1
  wf := scatter_S8x10000x64_S320000x1_S8x320000x64_02_1_1_1_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf

abbrev win0_0 : Pipeline.Window sig grid0 :=
  Pipeline.Window.ofSpec (Memref.whole main_v60) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v62) S16000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v64) S16000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v67) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v70) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v73) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v74) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v75) S16000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x10000x64 : Shape := ⟨3, ![8, 10000, 64]⟩
abbrev S2x320000 : Shape := ⟨2, ![2, 320000]⟩
abbrev S320000 : Shape := ⟨1, ![320000]⟩
abbrev S3x64x64 : Shape := ⟨3, ![3, 64, 64]⟩
abbrev S64 : Shape := ⟨1, ![64]⟩
abbrev S1x320000 : Shape := ⟨2, ![1, 320000]⟩
abbrev S_ : Shape := ⟨0, ![]⟩
abbrev S10000 : Shape := ⟨1, ![10000]⟩
abbrev S320000x1 : Shape := ⟨2, ![320000, 1]⟩
abbrev S1x64x64 : Shape := ⟨3, ![1, 64, 64]⟩
abbrev S64x64 : Shape := ⟨2, ![64, 64]⟩
abbrev S1x1x64 : Shape := ⟨3, ![1, 1, 64]⟩
abbrev S8x320000x64 : Shape := ⟨3, ![8, 320000, 64]⟩
abbrev S1x320000x1 : Shape := ⟨3, ![1, 320000, 1]⟩
abbrev S10000x64 : Shape := ⟨2, ![10000, 64]⟩

abbrev nBuf : Space → Nat
  | .hbm => 94
  | .vmem => 0
  | .smem => 0
  | _ => 0

abbrev bufTy : (tb : Table) → Fin (tcTables nBuf tb) → BufTy
  | .hbm, ⟨0, _⟩ => ⟨S8x10000x64, .f32⟩
  | .hbm, ⟨1, _⟩ => ⟨S2x320000, .i32⟩
  | .hbm, ⟨2, _⟩ => ⟨S320000, .f32⟩
  | .hbm, ⟨3, _⟩ => ⟨S3x64x64, .f32⟩
  | .hbm, ⟨4, _⟩ => ⟨S64, .f32⟩
  | .hbm, ⟨5, _⟩ => ⟨S1x320000, .i32⟩
  | .hbm, ⟨6, _⟩ => ⟨S320000, .i32⟩
  | .hbm, ⟨7, _⟩ => ⟨S1x320000, .i32⟩
  | .hbm, ⟨8, _⟩ => ⟨S320000, .i32⟩
  | .hbm, ⟨9, _⟩ => ⟨S_, .f32⟩
  | .hbm, ⟨10, _⟩ => ⟨S10000, .f32⟩
  | .hbm, ⟨11, _⟩ => ⟨S320000x1, .i32⟩
  | .hbm, ⟨12, _⟩ => ⟨S10000, .f32⟩
  | .hbm, ⟨13, _⟩ => ⟨S_, .f32⟩
  | .hbm, ⟨14, _⟩ => ⟨S10000, .f32⟩
  | .hbm, ⟨15, _⟩ => ⟨S10000, .i1⟩
  | .hbm, ⟨16, _⟩ => ⟨S10000, .f32⟩
  | .hbm, ⟨17, _⟩ => ⟨S_, .f32⟩
  | .hbm, ⟨18, _⟩ => ⟨S_, .f32⟩
  | .hbm, ⟨19, _⟩ => ⟨S10000, .f32⟩
  | .hbm, ⟨20, _⟩ => ⟨S10000, .f32⟩
  | .hbm, ⟨21, _⟩ => ⟨S_, .i32⟩
  | .hbm, ⟨22, _⟩ => ⟨S320000, .i32⟩
  | .hbm, ⟨23, _⟩ => ⟨S320000, .i1⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S320000, .i32⟩
  | .hbm, ⟨28, _⟩ => ⟨S320000x1, .i32⟩
  | .hbm, ⟨29, _⟩ => ⟨S320000, .f32⟩
  | .hbm, ⟨30, _⟩ => ⟨S320000, .f32⟩
  | .hbm, ⟨31, _⟩ => ⟨S_, .i32⟩
  | .hbm, ⟨32, _⟩ => ⟨S320000, .i32⟩
  | .hbm, ⟨33, _⟩ => ⟨S320000, .i1⟩
  | .hbm, ⟨34, _⟩ => ⟨S_, .i32⟩
  | .hbm, ⟨35, _⟩ => ⟨S320000, .i32⟩
  | .hbm, ⟨36, _⟩ => ⟨S320000, .i32⟩
  | .hbm, ⟨37, _⟩ => ⟨S320000, .i32⟩
  | .hbm, ⟨38, _⟩ => ⟨S320000x1, .i32⟩
  | .hbm, ⟨39, _⟩ => ⟨S320000, .f32⟩
  | .hbm, ⟨40, _⟩ => ⟨S320000, .f32⟩
  | .hbm, ⟨41, _⟩ => ⟨S320000, .f32⟩
  | .hbm, ⟨42, _⟩ => ⟨S1x64x64, .f32⟩
  | .hbm, ⟨43, _⟩ => ⟨S64x64, .f32⟩
  | .hbm, ⟨44, _⟩ => ⟨S8x10000x64, .f32⟩
  | .hbm, ⟨45, _⟩ => ⟨S1x1x64, .f32⟩
  | .hbm, ⟨46, _⟩ => ⟨S8x10000x64, .f32⟩
  | .hbm, ⟨47, _⟩ => ⟨S8x10000x64, .f32⟩
  | .hbm, ⟨48, _⟩ => ⟨S_, .i32⟩
  | .hbm, ⟨49, _⟩ => ⟨S320000, .i32⟩
  | .hbm, ⟨50, _⟩ => ⟨S320000, .i1⟩
  | .hbm, ⟨51, _⟩ => ⟨S_, .i32⟩
  | .hbm, ⟨52, _⟩ => ⟨S320000, .i32⟩
  | .hbm, ⟨53, _⟩ => ⟨S320000, .i32⟩
  | .hbm, ⟨54, _⟩ => ⟨S320000, .i32⟩
  | .hbm, ⟨55, _⟩ => ⟨S320000x1, .i32⟩
  | .hbm, ⟨56, _⟩ => ⟨S8x320000x64, .f32⟩
  | .hbm, ⟨57, _⟩ => ⟨S1x320000x1, .f32⟩
  | .hbm, ⟨58, _⟩ => ⟨S8x320000x64, .f32⟩
  | .hbm, ⟨59, _⟩ => ⟨S8x320000x64, .f32⟩
  | .hbm, ⟨60, _⟩ => ⟨S_, .f32⟩
  | .hbm, ⟨61, _⟩ => ⟨S10000x64, .f32⟩
  | .hbm, ⟨62, _⟩ => ⟨S320000x1, .i32⟩
  | .hbm, ⟨63, _⟩ => ⟨S8x10000x64, .f32⟩
  | .hbm, ⟨64, _⟩ => ⟨S8x10000x64, .f32⟩
  | .hbm, ⟨65, _⟩ => ⟨S1x64x64, .f32⟩
  | .hbm, ⟨66, _⟩ => ⟨S64x64, .f32⟩
  | .hbm, ⟨67, _⟩ => ⟨S8x10000x64, .f32⟩
  | .hbm, ⟨68, _⟩ => ⟨S8x10000x64, .f32⟩
  | .hbm, ⟨69, _⟩ => ⟨S_, .i32⟩
  | .hbm, ⟨70, _⟩ => ⟨S320000, .i32⟩
  | .hbm, ⟨71, _⟩ => ⟨S320000, .i1⟩
  | .hbm, ⟨72, _⟩ => ⟨S_, .i32⟩
  | .hbm, ⟨73, _⟩ => ⟨S320000, .i32⟩
  | .hbm, ⟨74, _⟩ => ⟨S320000, .i32⟩
  | .hbm, ⟨75, _⟩ => ⟨S320000, .i32⟩
  | .hbm, ⟨76, _⟩ => ⟨S320000x1, .i32⟩
  | .hbm, ⟨77, _⟩ => ⟨S8x320000x64, .f32⟩
  | .hbm, ⟨78, _⟩ => ⟨S1x320000x1, .f32⟩
  | .hbm, ⟨79, _⟩ => ⟨S8x320000x64, .f32⟩
  | .hbm, ⟨80, _⟩ => ⟨S8x320000x64, .f32⟩
  | .hbm, ⟨81, _⟩ => ⟨S_, .f32⟩
  | .hbm, ⟨82, _⟩ => ⟨S10000x64, .f32⟩
  | .hbm, ⟨83, _⟩ => ⟨S320000x1, .i32⟩
  | .hbm, ⟨84, _⟩ => ⟨S8x10000x64, .f32⟩
  | .hbm, ⟨85, _⟩ => ⟨S8x10000x64, .f32⟩
  | .hbm, ⟨86, _⟩ => ⟨S_, .f32⟩
  | .hbm, ⟨87, _⟩ => ⟨S8x10000x64, .f32⟩
  | .hbm, ⟨88, _⟩ => ⟨S8x10000x64, .f32⟩
  | .hbm, ⟨89, _⟩ => ⟨S8x10000x64, .f32⟩
  | .hbm, ⟨90, _⟩ => ⟨S1x64x64, .f32⟩
  | .hbm, ⟨91, _⟩ => ⟨S64x64, .f32⟩
  | .hbm, ⟨92, _⟩ => ⟨S8x10000x64, .f32⟩
  | .hbm, ⟨93, _⟩ => ⟨S8x10000x64, .f32⟩
  | _, _ => ⟨S8x10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_8 : Ref sig .tc := ⟨.hbm, 69, rfl⟩
abbrev main_v52 : Ref sig .tc := ⟨.hbm, 70, rfl⟩
abbrev main_v53 : Ref sig .tc := ⟨.hbm, 71, rfl⟩
abbrev main_c_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_10 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000 : S_.BroadcastsInDim S10000 (![] : Fin 0 → Fin S10000.rank)
  bcast_S320000_S320000x1_0 : S320000.BroadcastsInDim S320000x1 (![0] : Fin 1 → Fin S320000x1.rank)
  bcast_S_S320000 : S_.BroadcastsInDim S320000 (![] : Fin 0 → Fin S320000.rank)
  slices_S3x64x64_S1x64x64_0_0_0 : S3x64x64.Slices ![0, 0, 0] S1x64x64
  shapeCasts_S1x64x64_S64x64 : S1x64x64.ShapeCasts S64x64
  bcast_S64_S1x1x64_2 : S64.BroadcastsInDim S1x1x64 (![2] : Fin 1 → Fin S1x1x64.rank)
  bcast_S1x1x64_S8x10000x64_0_1_2 : S1x1x64.BroadcastsInDim S8x10000x64 (![0, 1, 2] : Fin 3 → Fin S8x10000x64.rank)
  bcast_S320000_S1x320000x1_1 : S320000.BroadcastsInDim S1x320000x1 (![1] : Fin 1 → Fin S1x320000x1.rank)
  bcast_S1x320000x1_S8x320000x64_0_1_2 : S1x320000x1.BroadcastsInDim S8x320000x64 (![0, 1, 2] : Fin 3 → Fin S8x320000x64.rank)
  bcast_S_S10000x64 : S_.BroadcastsInDim S10000x64 (![] : Fin 0 → Fin S10000x64.rank)
  bcast_S10000x64_S8x10000x64_1_2 : S10000x64.BroadcastsInDim S8x10000x64 (![1, 2] : Fin 2 → Fin S8x10000x64.rank)
  slices_S3x64x64_S1x64x64_1_0_0 : S3x64x64.Slices ![1, 0, 0] S1x64x64
  bcast_S_S8x10000x64 : S_.BroadcastsInDim S8x10000x64 (![] : Fin 0 → Fin S8x10000x64.rank)
  slices_S3x64x64_S1x64x64_2_0_0 : S3x64x64.Slices ![2, 0, 0] S1x64x64
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  dot_S8x10000x64_S64x64_S8x10000x64_2_0_01_1_n_n_wf : DotDims.WF S8x10000x64 S64x64 S8x10000x64 [2] [0] [0, 1] [1] [] []
  gather_S8x10000x64_S320000x1_S8x320000x64_02_1_n_n_1_1_8164_wf : GatherDims.WF S8x10000x64 S320000x1 S8x320000x64 [0, 2] [1] [] [1] [] 1 ![8, 1, 64]
  scatter_S8x10000x64_S320000x1_S8x320000x64_02_1_1_1_wf : ScatterDims.WF S8x10000x64 S320000x1 S8x320000x64 [0, 2] [1] [1] 1

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def dot_S8x10000x64_S64x64_S8x10000x64_2_0_01_1_n_n : DotDims S8x10000x64 S64x64 S8x10000x64 where
  lhsContracting := [2]
  rhsContracting := [0]
  lhsNonContracting := [0, 1]
  rhsNonContracting := [1]
  lhsBatch := []
  rhsBatch := []
  wf := dot_S8x10000x64_S64x64_S8x10000x64_2_0_01_1_n_n_wf
def gather_S8x10000x64_S320000x1_S8x320000x64_02_1_n_n_1_1_8164 : GatherDims S8x10000x64 S320000x1 S8x320000x64 where
  offsetDims := [0, 2]
  collapsedSliceDims := [1]
  operandBatchingDims := []
  startIndicesBatchingDims := []
  startIndexMap := [1]
  indexVectorDim := 1
  sliceSizes := ![8, 1, 64]
  wf := gather_S8x10000x64_S320000x1_S8x320000x64_02_1_n_n_1_1_8164_wf
def scatter_S8x10000x64_S320000x1_S8x320000x64_02_1_1_1 : ScatterDims S8x10000x64 S320000x1 S8x320000x64 where
  updateWindowDims := [0, 2]
  insertedWindowDims := [1]
  scatterDimsToOperandDims := [1]
  indexVectorDim := 1
  wf := scatter_S8x10000x64_S320000x1_S8x320000x64_02_1_1_1_wf

class Facts : Prop extends Facts₀ where

variable [Facts]
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.Body.lean ====
/-
  The kernel body's one stored value, read entry by entry.

  On a block of 16000 rows the body multiplies each of the three signal blocks by its 64 × 64 matrix (accumulating into
  zero), adds the three products left to right and then the bias row, broadcast over the rows. So at row p and channel q
  the stored value is ((Σ_d a0[p,d]·w0[d,q] + Σ_d a1[p,d]·w1[d,q]) + Σ_d a2[p,d]·w2[d,q]) + bias[0,q].
-/
import proofs.«165655_j54185307406514_1_alg».proof.Proof.Gen.KernelIdeal.Skeleton
import proofs.«165655_j54185307406514_1_alg».proof.Proof.LibDotRows
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx

/-- The printed dimension numbers are those of a plain rows-by-columns product. -/
theorem dims_plain : dot_S16000x64_S64x64_S16000x64_1_0_0_1_n_n = DotDims.plain 16000 64 64 := rfl

theorem payload_apply (v0 v5 v11 : FVec Ideal S16000x64 .bf16) (v2 v7 v13 : FVec Ideal S64x64 .bf16) (v17 : FVec Ideal S1x64 .f32)
    (p : Fin 16000) (q : Fin 64) :
    k0_pay1 (F := Ideal) v0 v2 v5 v7 v11 v13 v17 (ix2 p q)
      = ((∑ d : Fin 64, v0 (ix2 p d) * v2 (ix2 d q) + ∑ d : Fin 64, v5 (ix2 p d) * v7 (ix2 d q))
          + ∑ d : Fin 64, v11 (ix2 p d) * v13 (ix2 d q)) + v17 (ix2 (0 : Fin 1) q) := by
  unfold k0_pay1
  simp only [shapeCast_self]
  rw [addf_apply, addf_apply, addf_apply, dims_plain, Cert.Lib.DotRows.matmul_plain_apply, Cert.Lib.DotRows.matmul_plain_apply,
    Cert.Lib.DotRows.matmul_plain_apply, broadcastTo_1b_ab_apply]

end Cert.KernelIdeal.Body

end
-- ==== Proof.Spec.lean ====
/-
  The Chebyshev combination, as plain functions over the extended reals.

  A graph signal lives on [8, 10000, 64] (batch, node, channel); the three order terms T0, T1, T2 are mixed by the
  three 64 × 64 matrices W0, W1, W2 and a bias is added:
      out[b, n, e] = ((Σ_d T0[b,n,d]·W0[d,e] + Σ_d T1[b,n,d]·W1[d,e]) + Σ_d T2[b,n,d]·W2[d,e]) + bias[e].
  The same sums written on the flattened node axis, rows r = b·10000 + n of [80000, 64] arrays, are `flat`.
  Addition on the extended reals is commutative and associative (−∞ absorbs), so the order in which the three terms and
  the bias are added does not matter: `add_bias_first`. No finiteness is needed anywhere.
-/
import Idealize.ShloMosaic.Lib.ValueIdx
import Idealize.ShloMosaic.PureOps.Ideal.Laws

noncomputable section

namespace Cert.Cheb

open Idealize.ShloMosaic Idealize.ShloMosaic.ValueIdx

/-- The shapes of a signal, of the bias, of a flattened signal, of one order's matrix, and of the bias as a row. -/
abbrev SX : Shape := ⟨3, ![8, 10000, 64]⟩
abbrev SB : Shape := ⟨1, ![64]⟩
abbrev SF : Shape := ⟨2, ![80000, 64]⟩
abbrev SM : Shape := ⟨2, ![64, 64]⟩
abbrev SR : Shape := ⟨2, ![1, 64]⟩

/-- One order's contribution at (b, n, e), for that order's 64 × 64 matrix w: Σ_d t[b, n, d] · w[d, e]. -/
def term (t : SX.Idx → EReal) (w : SM.Idx → EReal) (b : Fin 8) (n : Fin 10000) (e : Fin 64) : EReal :=
  ∑ d : Fin 64, t (ix3 b n d) * w (ix2 d e)

/-- The layer's output at (b, n, e): the three contributions, then the bias. -/
def outAt (t0 t1 t2 : SX.Idx → EReal) (w0 w1 w2 : SM.Idx → EReal) (bias : SB.Idx → EReal) (b : Fin 8) (n : Fin 10000) (e : Fin 64) : EReal :=
  ((term t0 w0 b n e + term t1 w1 b n e) + term t2 w2 b n e) + bias (ix1 e)

/-- The layer's output as an array. -/
def out (t0 t1 t2 : SX.Idx → EReal) (w0 w1 w2 : SM.Idx → EReal) (bias : SB.Idx → EReal) : SX.Idx → EReal :=
  fun i => outAt t0 t1 t2 w0 w1 w2 bias (i 0) (i 1) (i 2)

theorem out_ix3 (t0 t1 t2 : SX.Idx → EReal) (w0 w1 w2 : SM.Idx → EReal) (bias : SB.Idx → EReal) (b : Fin 8) (n : Fin 10000) (e : Fin 64) :
    out t0 t1 t2 w0 w1 w2 bias (ix3 b n e) = outAt t0 t1 t2 w0 w1 w2 bias b n e := rfl

/-- The same combination on flattened rows: row r of three [80000, 64] arrays against three 64 × 64 matrices, plus a
    [1, 64] bias row. -/
def flatAt (a0 a1 a2 : SF.Idx → EReal) (w0 w1 w2 : SM.Idx → EReal) (brow : SR.Idx → EReal) (r : Fin 80000) (e : Fin 64) : EReal :=
  ((∑ d : Fin 64, a0 (ix2 r d) * w0 (ix2 d e) + ∑ d : Fin 64, a1 (ix2 r d) * w1 (ix2 d e)) + ∑ d : Fin 64, a2 (ix2 r d) * w2 (ix2 d e))
    + brow (ix2 (0 : Fin 1) e)

def flat (a0 a1 a2 : SF.Idx → EReal) (w0 w1 w2 : SM.Idx → EReal) (brow : SR.Idx → EReal) : SF.Idx → EReal :=
  fun j => flatAt a0 a1 a2 w0 w1 w2 brow (j 0) (j 1)

theorem flat_ix2 (a0 a1 a2 : SF.Idx → EReal) (w0 w1 w2 : SM.Idx → EReal) (brow : SR.Idx → EReal) (r : Fin 80000) (e : Fin 64) :
    flat a0 a1 a2 w0 w1 w2 brow (ix2 r e) = flatAt a0 a1 a2 w0 w1 w2 brow r e := rfl

/-- Adding the bias right after the first contribution, or after the last, is the same sum. -/
theorem add_bias_first (a b c d : EReal) : ((a + d) + b) + c = ((a + b) + c) + d := by
  rw [add_right_comm a d b, add_right_comm (a + b) d c]

end Cert.Cheb

end
-- ==== Proof.Region.lean ====
/-
  What the kernel's region leaves in its output array: the flattened Chebyshev combination `Cheb.flat` of the seven
  arrays the region finds.

  The grid has five points; point t stages rows 16000·t … 16000·t + 15999 of the three signal arrays, the three
  matrices and the bias row whole, and writes back rows 16000·t … of the output. So the block written at point t is
  block t of ONE function of the seven arrays (row r of the output needs row r of each signal only), and the five
  blocks tile the 80000 rows: row r lies in block r / 16000.
-/
import proofs.«165655_j54185307406514_1_alg».proof.Proof.Gen.KernelIdeal.Frame
import proofs.«165655_j54185307406514_1_alg».proof.Proof.Body
import proofs.«165655_j54185307406514_1_alg».proof.Proof.Spec
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx Cert.Cheb
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The printed index maps over the five grid points: the signals and the output move down one block of rows per point,
    the matrices and the bias stay. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row p of the first signal's block at grid point t is row t·16000 + p of the array the region finds. -/
theorem rows_x (c : Dev nD) (t : Fin cfg0.N) (p : Fin 16000) (d : Fin 64) (r : Fin 80000) (hr : r.val = t.val * 16000 + p.val) :
    (iblk m c 0 t : S16000x64.Idx → EReal) (ix2 p d) = (V m c main_v60 : S80000x64.Idx → EReal) (ix2 r d) := by
  have hi : win0_0.index t (0 : Fin 2) = t.val ∧ win0_0.index t (1 : Fin 2) = 0 := by
    have h := idx_facts t; exact ⟨by omega, by omega⟩
  unfold iblk
  rw [View.read_apply]
  show (V m c main_v60 : S80000x64.Idx → EReal) (((cfg0.win 0).blk t).view.emb (ix2 p d)) = _
  refine congrArg (V m c main_v60 : S80000x64.Idx → EReal) (funext fun a => Fin.ext ?_)
  match a with
  | ⟨0, _⟩ => show win0_0.index t (0 : Fin 2) * 16000 + 1 * p.val = r.val; rw [hi.1, hr]; omega
  | ⟨1, _⟩ => show win0_0.index t (1 : Fin 2) * 64 + 1 * d.val = d.val; rw [hi.2]; omega

/-- Row p of the second signal's block at grid point t is row t·16000 + p of the array the region finds. -/
theorem rows_t1 (c : Dev nD) (t : Fin cfg0.N) (p : Fin 16000) (d : Fin 64) (r : Fin 80000) (hr : r.val = t.val * 16000 + p.val) :
    (iblk m c 1 t : S16000x64.Idx → EReal) (ix2 p d) = (V m c main_v62 : S80000x64.Idx → EReal) (ix2 r d) := by
  have hi : win0_1.index t (0 : Fin 2) = t.val ∧ win0_1.index t (1 : Fin 2) = 0 := by
    have h := idx_facts t; exact ⟨by omega, by omega⟩
  unfold iblk
  rw [View.read_apply]
  show (V m c main_v62 : S80000x64.Idx → EReal) (((cfg0.win 1).blk t).view.emb (ix2 p d)) = _
  refine congrArg (V m c main_v62 : S80000x64.Idx → EReal) (funext fun a => Fin.ext ?_)
  match a with
  | ⟨0, _⟩ => show win0_1.index t (0 : Fin 2) * 16000 + 1 * p.val = r.val; rw [hi.1, hr]; omega
  | ⟨1, _⟩ => show win0_1.index t (1 : Fin 2) * 64 + 1 * d.val = d.val; rw [hi.2]; omega

/-- Row p of the third signal's block at grid point t is row t·16000 + p of the array the region finds. -/
theorem rows_t2 (c : Dev nD) (t : Fin cfg0.N) (p : Fin 16000) (d : Fin 64) (r : Fin 80000) (hr : r.val = t.val * 16000 + p.val) :
    (iblk m c 2 t : S16000x64.Idx → EReal) (ix2 p d) = (V m c main_v64 : S80000x64.Idx → EReal) (ix2 r d) := by
  have hi : win0_2.index t (0 : Fin 2) = t.val ∧ win0_2.index t (1 : Fin 2) = 0 := by
    have h := idx_facts t; exact ⟨by omega, by omega⟩
  unfold iblk
  rw [View.read_apply]
  show (V m c main_v64 : S80000x64.Idx → EReal) (((cfg0.win 2).blk t).view.emb (ix2 p d)) = _
  refine congrArg (V m c main_v64 : S80000x64.Idx → EReal) (funext fun a => Fin.ext ?_)
  match a with
  | ⟨0, _⟩ => show win0_2.index t (0 : Fin 2) * 16000 + 1 * p.val = r.val; rw [hi.1, hr]; omega
  | ⟨1, _⟩ => show win0_2.index t (1 : Fin 2) * 64 + 1 * d.val = d.val; rw [hi.2]; omega

/-- The first matrix is staged whole at every grid point. -/
theorem whole_w0 (c : Dev nD) (t : Fin cfg0.N) (d : Fin 64) (e : Fin 64) :
    (iblk m c 3 t : S64x64.Idx → EReal) (ix2 d e) = (V m c main_v67 : S64x64.Idx → EReal) (ix2 d e) := by
  have hi : win0_3.index t (0 : Fin 2) = 0 ∧ win0_3.index t (1 : Fin 2) = 0 := by
    have h := idx_facts t; exact ⟨by omega, by omega⟩
  unfold iblk
  rw [View.read_apply]
  show (V m c main_v67 : S64x64.Idx → EReal) (((cfg0.win 3).blk t).view.emb (ix2 d e)) = _
  refine congrArg (V m c main_v67 : S64x64.Idx → EReal) (funext fun a => Fin.ext ?_)
  match a with
  | ⟨0, _⟩ => show win0_3.index t (0 : Fin 2) * 64 + 1 * d.val = d.val; rw [hi.1]; omega
  | ⟨1, _⟩ => show win0_3.index t (1 : Fin 2) * 64 + 1 * e.val = e.val; rw [hi.2]; omega

/-- The second matrix is staged whole at every grid point. -/
theorem whole_w1 (c : Dev nD) (t : Fin cfg0.N) (d : Fin 64) (e : Fin 64) :
    (iblk m c 4 t : S64x64.Idx → EReal) (ix2 d e) = (V m c main_v70 : S64x64.Idx → EReal) (ix2 d e) := by
  have hi : win0_4.index t (0 : Fin 2) = 0 ∧ win0_4.index t (1 : Fin 2) = 0 := by
    have h := idx_facts t; exact ⟨by omega, by omega⟩
  unfold iblk
  rw [View.read_apply]
  show (V m c main_v70 : S64x64.Idx → EReal) (((cfg0.win 4).blk t).view.emb (ix2 d e)) = _
  refine congrArg (V m c main_v70 : S64x64.Idx → EReal) (funext fun a => Fin.ext ?_)
  match a with
  | ⟨0, _⟩ => show win0_4.index t (0 : Fin 2) * 64 + 1 * d.val = d.val; rw [hi.1]; omega
  | ⟨1, _⟩ => show win0_4.index t (1 : Fin 2) * 64 + 1 * e.val = e.val; rw [hi.2]; omega

/-- The third matrix is staged whole at every grid point. -/
theorem whole_w2 (c : Dev nD) (t : Fin cfg0.N) (d : Fin 64) (e : Fin 64) :
    (iblk m c 5 t : S64x64.Idx → EReal) (ix2 d e) = (V m c main_v73 : S64x64.Idx → EReal) (ix2 d e) := by
  have hi : win0_5.index t (0 : Fin 2) = 0 ∧ win0_5.index t (1 : Fin 2) = 0 := by
    have h := idx_facts t; exact ⟨by omega, by omega⟩
  unfold iblk
  rw [View.read_apply]
  show (V m c main_v73 : S64x64.Idx → EReal) (((cfg0.win 5).blk t).view.emb (ix2 d e)) = _
  refine congrArg (V m c main_v73 : S64x64.Idx → EReal) (funext fun a => Fin.ext ?_)
  match a with
  | ⟨0, _⟩ => show win0_5.index t (0 : Fin 2) * 64 + 1 * d.val = d.val; rw [hi.1]; omega
  | ⟨1, _⟩ => show win0_5.index t (1 : Fin 2) * 64 + 1 * e.val = e.val; rw [hi.2]; omega

/-- The bias row is staged whole at every grid point. -/
theorem whole_bias (c : Dev nD) (t : Fin cfg0.N) (d : Fin 1) (e : Fin 64) :
    (iblk m c 6 t : S1x64.Idx → EReal) (ix2 d e) = (V m c main_v74 : S1x64.Idx → EReal) (ix2 d e) := by
  have hi : win0_6.index t (0 : Fin 2) = 0 ∧ win0_6.index t (1 : Fin 2) = 0 := by
    have h := idx_facts t; exact ⟨by omega, by omega⟩
  unfold iblk
  rw [View.read_apply]
  show (V m c main_v74 : S1x64.Idx → EReal) (((cfg0.win 6).blk t).view.emb (ix2 d e)) = _
  refine congrArg (V m c main_v74 : S1x64.Idx → EReal) (funext fun a => Fin.ext ?_)
  match a with
  | ⟨0, _⟩ => show win0_6.index t (0 : Fin 2) * 1 + 1 * d.val = d.val; rw [hi.1]; omega
  | ⟨1, _⟩ => show win0_6.index t (1 : Fin 2) * 64 + 1 * e.val = e.val; rw [hi.2]; omega

/-- WHAT POINT t WRITES BACK is block t of the flattened combination of the seven arrays. -/
theorem flushed_eq (c : Dev nD) (t : Fin cfg0.N) :
    (dats m 0 c).flushed 7 t = ((cfg0.win 7).blk t).view.read (Elt Ideal) (flat (V m c main_v60) (V m c main_v62) (V m c main_v64) (V m c main_v67) (V m c main_v70) (V m c main_v73) (V m c main_v74)) := by
  show (cfg0.win 7).cut (grid0.coords t) ((dats m 0 c).after 7 t) = _
  rw [after0_7]
  unfold out0_7
  rw [View.canon_unit_zero zero_offsets]
  simp only [View.ld_unit_zero (S := S16000x64) zero_offsets, View.ld_unit_zero (S := S64x64) zero_offsets, View.ld_unit_zero (S := S1x64) zero_offsets]
  funext j
  obtain ⟨p, q, rfl⟩ : ∃ (p : Fin 16000) (q : Fin 64), j = ix2 p q := ⟨j 0, j 1, eq_ix2 j⟩
  have hN : cfg0.N = 5 := N_0
  have ht : t.val < 5 := hN ▸ t.isLt
  have hp : p.val < 16000 := p.isLt
  have hi : win0_7.index t (0 : Fin 2) = t.val ∧ win0_7.index t (1 : Fin 2) = 0 := by
    have h := idx_facts t; exact ⟨by omega, by omega⟩
  let r : Fin 80000 := ⟨t.val * 16000 + p.val, by omega⟩
  have hr : r.val = t.val * 16000 + p.val := rfl
  have hemb : ((cfg0.win 7).blk t).view.emb (ix2 p q) = (ix2 r q : S80000x64.Idx) := funext fun a => Fin.ext (by
    match a with
    | ⟨0, _⟩ => show win0_7.index t (0 : Fin 2) * 16000 + 1 * p.val = t.val * 16000 + p.val; rw [hi.1]; omega
    | ⟨1, _⟩ => show win0_7.index t (1 : Fin 2) * 64 + 1 * q.val = q.val; rw [hi.2]; omega)
  rw [View.read_apply]
  show k0_pay1 (F := Ideal) (iblk m c 0 t) (iblk m c 3 t) (iblk m c 1 t) (iblk m c 4 t) (iblk m c 2 t) (iblk m c 5 t) (iblk m c 6 t) (ix2 p q)
    = flat (V m c main_v60) (V m c main_v62) (V m c main_v64) (V m c main_v67) (V m c main_v70) (V m c main_v73) (V m c main_v74) (((cfg0.win 7).blk t).view.emb (ix2 p q))
  rw [hemb, flat_ix2]
  refine (Body.payload_apply (iblk m c 0 t) (iblk m c 1 t) (iblk m c 2 t) (iblk m c 3 t) (iblk m c 4 t) (iblk m c 5 t) (iblk m c 6 t) p q).trans ?_
  unfold flatAt
  refine congrArg₂ (· + ·) (congrArg₂ (· + ·) (congrArg₂ (· + ·) ?_ ?_) ?_) ?_
  · exact Finset.sum_congr rfl fun d _ => by rw [rows_x m c t p d r hr, whole_w0 m c t d q]
  · exact Finset.sum_congr rfl fun d _ => by rw [rows_t1 m c t p d r hr, whole_w1 m c t d q]
  · exact Finset.sum_congr rfl fun d _ => by rw [rows_t2 m c t p d r hr, whole_w2 m c t d q]
  · exact whole_bias m c t 0 q

/-- An index of the output array is in point t's block iff each coordinate is in the block's range on its axis. -/
theorem mem_blk (t : Fin cfg0.N) (i : S80000x64.Idx) :
    i ∈ ((cfg0.win 7).blk t).view.set ↔ ∀ a : Fin 2, win0_7.index t a * S16000x64.size a ≤ (i a).val ∧ (i a).val < win0_7.index t a * S16000x64.size a + S16000x64.size a := by
  show i ∈ ((View.whole main_v75).slice (win0_7.rect t)).set ↔ _
  rw [View.set_slice_whole, Rect.mem_set_unit]
  exact Iff.rfl

/-- Every row is in some point's block: row r in block r / 16000. -/
theorem cover (i : S80000x64.Idx) : ∃ t : Fin cfg0.N, (cfg0.win 7).flush t = true ∧ i ∈ ((cfg0.win 7).blk t).view.set := by
  have hN : cfg0.N = 5 := N_0
  have hi0 : (i 0).val < 80000 := (i 0).isLt
  have hi1 : (i 1).val < 64 := (i 1).isLt
  have hlt : (i 0).val / 16000 < cfg0.N := by rw [hN]; omega
  refine ⟨⟨(i 0).val / 16000, hlt⟩, flush0_7 _, ?_⟩
  rw [mem_blk]
  have hi : win0_7.index ⟨(i 0).val / 16000, hlt⟩ (0 : Fin 2) = (i 0).val / 16000 ∧ win0_7.index ⟨(i 0).val / 16000, hlt⟩ (1 : Fin 2) = 0 := by
    have h := idx_facts ⟨(i 0).val / 16000, hlt⟩
    exact ⟨h.2.2.2.2.2.2.2.2.2.2.2.2.2.2.1, h.2.2.2.2.2.2.2.2.2.2.2.2.2.2.2⟩
  intro a
  match a with
  | ⟨0, _⟩ =>
    show win0_7.index ⟨(i 0).val / 16000, hlt⟩ (0 : Fin 2) * 16000 ≤ (i 0).val ∧ (i 0).val < win0_7.index ⟨(i 0).val / 16000, hlt⟩ (0 : Fin 2) * 16000 + 16000
    rw [hi.1]; omega
  | ⟨1, _⟩ =>
    show win0_7.index ⟨(i 0).val / 16000, hlt⟩ (1 : Fin 2) * 64 ≤ (i 1).val ∧ (i 1).val < win0_7.index ⟨(i 0).val / 16000, hlt⟩ (1 : Fin 2) * 64 + 64
    rw [hi.2]; omega

/-- THE OUTPUT ARRAY after the region: the flattened combination of the seven arrays the region found. -/
theorem final (c : Dev nD) : (dats m 0 c).arrAt 7 cfg0.N = flat (V m c main_v60) (V m c main_v62) (V m c main_v64) (V m c main_v67) (V m c main_v70) (V m c main_v73) (V m c main_v74) :=
  (dats m 0 c).arrAt_eq_of_cover 7 (flat (V m c main_v60) (V m c main_v62) (V m c main_v64) (V m c main_v67) (V m c main_v70) (V m c main_v73) (V m c main_v74)) (fun t _ => flushed_eq m c t) cover

end Cert.KernelIdeal.Region

end
-- ==== Proof.Entry.lean ====
/-
  What the kernel's region finds in the seven arrays it stages: the values the host lines before the call compute.

  The three signals are the input x, its first propagation T1 (a scatter-add of gathered, edge-weighted rows) and
  T2 = 2·prop(T1) − x, each flattened to [80000, 64] and rounded to bf16 — the identity on the extended reals; the three
  matrices are the slices W[0], W[1], W[2], rounded likewise; the bias is reshaped to a row. The host lines that build
  T1 and T2 are the same lines the reference runs, so T1 and T2 are named here by the reference's own stages
  (its %47 and %68) of the same argument arrays, and the sparse propagation is never opened.
-/
import proofs.«165655_j54185307406514_1_alg».proof.Proof.Gen.KernelIdeal.Frame
import proofs.«165655_j54185307406514_1_alg».proof.Proof.Gen.ReferenceIdeal.Read
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 16384 in
set_option maxHeartbeats 40000000 in
/-- The first staged array is the input signal, flattened. -/
theorem entry_x (c : Dev nD) :
    (V m c main_v60 : S80000x64.Idx → EReal)
      = truncf (F := Ideal) .bf16 (shapeCast S80000x64 (m ((c : Thread nD τ).loc main_arg0) : S8x10000x64.Idx → EReal) shapeCasts_S8x10000x64_S80000x64) bitsLt_bf16_f32 := by
  dsimp only [V, V0]
  simp only [hostOps0, hostOps0_1, hostOps0_2, List.flatten_cons, List.flatten_nil, List.append_nil, List.cons_append, List.nil_append]
  after_results_simp
  rfl

set_option maxRecDepth 16384 in
set_option maxHeartbeats 40000000 in
/-- The second is the first propagation T1 of the input signal — the reference's stage %47 of the same arguments —, flattened. -/
theorem entry_t1 (c : Dev nD) :
    (V m c main_v62 : S80000x64.Idx → EReal)
      = truncf (F := Ideal) .bf16 (shapeCast S80000x64 (Cert.ReferenceIdeal.Read.val_main_v47 (F := Ideal) (m ((c : Thread nD τ).loc main_arg0)) (m ((c : Thread nD τ).loc main_arg1)) (m ((c : Thread nD τ).loc main_arg2)) : S8x10000x64.Idx → EReal) shapeCasts_S8x10000x64_S80000x64) bitsLt_bf16_f32 := by
  dsimp only [V, V0]
  simp only [hostOps0, hostOps0_1, hostOps0_2, List.flatten_cons, List.flatten_nil, List.append_nil, List.cons_append, List.nil_append]
  after_results_simp
  simp only [TRef.toBuf, TRef.ofBuf, cast_eq, id_eq]
  simp only [Cert.ReferenceIdeal.Read.val_main_v47, Cert.ReferenceIdeal.Read.val_main_v46, Cert.ReferenceIdeal.Read.val_main_v45, Cert.ReferenceIdeal.Read.val_main_v44, Cert.ReferenceIdeal.Read.val_main_v43, Cert.ReferenceIdeal.Read.val_main_v42, Cert.ReferenceIdeal.Read.val_main_v41, Cert.ReferenceIdeal.Read.val_main_v40, Cert.ReferenceIdeal.Read.val_main_v39, Cert.ReferenceIdeal.Read.val_main_v38, Cert.ReferenceIdeal.Read.val_main_v37, Cert.ReferenceIdeal.Read.val_main_v36, Cert.ReferenceIdeal.Read.val_main_v35, Cert.ReferenceIdeal.Read.val_main_v34, Cert.ReferenceIdeal.Read.val_main_v27, Cert.ReferenceIdeal.Read.val_main_v26, Cert.ReferenceIdeal.Read.val_main_v25, Cert.ReferenceIdeal.Read.val_main_v24, Cert.ReferenceIdeal.Read.val_main_v23, Cert.ReferenceIdeal.Read.val_main_v22, Cert.ReferenceIdeal.Read.val_main_v21, Cert.ReferenceIdeal.Read.val_main_v20, Cert.ReferenceIdeal.Read.val_main_v19, Cert.ReferenceIdeal.Read.val_main_v18, Cert.ReferenceIdeal.Read.val_main_v17, Cert.ReferenceIdeal.Read.val_main_v16, Cert.ReferenceIdeal.Read.val_main_v15, Cert.ReferenceIdeal.Read.val_main_v14, Cert.ReferenceIdeal.Read.val_main_v13, Cert.ReferenceIdeal.Read.val_main_v12, Cert.ReferenceIdeal.Read.val_main_v11, Cert.ReferenceIdeal.Read.val_main_v10, Cert.ReferenceIdeal.Read.val_main_call0_v1, Cert.ReferenceIdeal.Read.val_main_call0_v0, Cert.ReferenceIdeal.Read.val_main_cst_1, Cert.ReferenceIdeal.Read.val_main_v9, Cert.ReferenceIdeal.Read.val_main_v8, Cert.ReferenceIdeal.Read.val_main_v7, Cert.ReferenceIdeal.Read.val_main_v6, Cert.ReferenceIdeal.Read.val_main_v5, Cert.ReferenceIdeal.Read.val_main_v4, Cert.ReferenceIdeal.Read.val_main_v3, Cert.ReferenceIdeal.Read.val_main_v2, Cert.ReferenceIdeal.Read.val_main_v1, Cert.ReferenceIdeal.Read.val_main_v0, Cert.ReferenceIdeal.Read.val_main_cst, Cert.ReferenceIdeal.Read.val_main_cst_0, Cert.ReferenceIdeal.Read.val_main_cst_7, Cert.ReferenceIdeal.Read.val_main_c, Cert.ReferenceIdeal.Read.val_main_c_2, Cert.ReferenceIdeal.Read.val_main_c_3, Cert.ReferenceIdeal.Read.val_main_c_4, Cert.ReferenceIdeal.Read.val_main_c_5, Cert.ReferenceIdeal.Read.val_main_c_6]
  rfl

set_option maxRecDepth 16384 in
set_option maxHeartbeats 40000000 in
/-- The third is T2 = 2·prop(T1) − x — the reference's stage %68 of the same arguments —, flattened. -/
theorem entry_t2 (c : Dev nD) :
    (V m c main_v64 : S80000x64.Idx → EReal)
      = truncf (F := Ideal) .bf16 (shapeCast S80000x64 (Cert.ReferenceIdeal.Read.val_main_v68 (F := Ideal) (m ((c : Thread nD τ).loc main_arg0)) (m ((c : Thread nD τ).loc main_arg1)) (m ((c : Thread nD τ).loc main_arg2)) : S8x10000x64.Idx → EReal) shapeCasts_S8x10000x64_S80000x64) bitsLt_bf16_f32 := by
  dsimp only [V, V0]
  simp only [hostOps0, hostOps0_1, hostOps0_2, List.flatten_cons, List.flatten_nil, List.append_nil, List.cons_append, List.nil_append]
  after_results_simp
  simp only [TRef.toBuf, TRef.ofBuf, cast_eq, id_eq]
  simp only [Cert.ReferenceIdeal.Read.val_main_v68, Cert.ReferenceIdeal.Read.val_main_v67, Cert.ReferenceIdeal.Read.val_main_v66, Cert.ReferenceIdeal.Read.val_main_v65, Cert.ReferenceIdeal.Read.val_main_v64, Cert.ReferenceIdeal.Read.val_main_v63, Cert.ReferenceIdeal.Read.val_main_v62, Cert.ReferenceIdeal.Read.val_main_v61, Cert.ReferenceIdeal.Read.val_main_v60, Cert.ReferenceIdeal.Read.val_main_v59, Cert.ReferenceIdeal.Read.val_main_v58, Cert.ReferenceIdeal.Read.val_main_v57, Cert.ReferenceIdeal.Read.val_main_v56, Cert.ReferenceIdeal.Read.val_main_v55, Cert.ReferenceIdeal.Read.val_main_v54, Cert.ReferenceIdeal.Read.val_main_v53, Cert.ReferenceIdeal.Read.val_main_v52, Cert.ReferenceIdeal.Read.val_main_cst_10, Cert.ReferenceIdeal.Read.val_main_cst_11, Cert.ReferenceIdeal.Read.val_main_c_8, Cert.ReferenceIdeal.Read.val_main_c_9, Cert.ReferenceIdeal.Read.val_main_v47, Cert.ReferenceIdeal.Read.val_main_v46, Cert.ReferenceIdeal.Read.val_main_v45, Cert.ReferenceIdeal.Read.val_main_v44, Cert.ReferenceIdeal.Read.val_main_v43, Cert.ReferenceIdeal.Read.val_main_v42, Cert.ReferenceIdeal.Read.val_main_v41, Cert.ReferenceIdeal.Read.val_main_v40, Cert.ReferenceIdeal.Read.val_main_v39, Cert.ReferenceIdeal.Read.val_main_v38, Cert.ReferenceIdeal.Read.val_main_v37, Cert.ReferenceIdeal.Read.val_main_v36, Cert.ReferenceIdeal.Read.val_main_v35, Cert.ReferenceIdeal.Read.val_main_v34, Cert.ReferenceIdeal.Read.val_main_v27, Cert.ReferenceIdeal.Read.val_main_v26, Cert.ReferenceIdeal.Read.val_main_v25, Cert.ReferenceIdeal.Read.val_main_v24, Cert.ReferenceIdeal.Read.val_main_v23, Cert.ReferenceIdeal.Read.val_main_v22, Cert.ReferenceIdeal.Read.val_main_v21, Cert.ReferenceIdeal.Read.val_main_v20, Cert.ReferenceIdeal.Read.val_main_v19, Cert.ReferenceIdeal.Read.val_main_v18, Cert.ReferenceIdeal.Read.val_main_v17, Cert.ReferenceIdeal.Read.val_main_v16, Cert.ReferenceIdeal.Read.val_main_v15, Cert.ReferenceIdeal.Read.val_main_v14, Cert.ReferenceIdeal.Read.val_main_v13, Cert.ReferenceIdeal.Read.val_main_v12, Cert.ReferenceIdeal.Read.val_main_v11, Cert.ReferenceIdeal.Read.val_main_v10, Cert.ReferenceIdeal.Read.val_main_call0_v1, Cert.ReferenceIdeal.Read.val_main_call0_v0, Cert.ReferenceIdeal.Read.val_main_cst_1, Cert.ReferenceIdeal.Read.val_main_v9, Cert.ReferenceIdeal.Read.val_main_v8, Cert.ReferenceIdeal.Read.val_main_v7, Cert.ReferenceIdeal.Read.val_main_v6, Cert.ReferenceIdeal.Read.val_main_v5, Cert.ReferenceIdeal.Read.val_main_v4, Cert.ReferenceIdeal.Read.val_main_v3, Cert.ReferenceIdeal.Read.val_main_v2, Cert.ReferenceIdeal.Read.val_main_v1, Cert.ReferenceIdeal.Read.val_main_v0, Cert.ReferenceIdeal.Read.val_main_cst, Cert.ReferenceIdeal.Read.val_main_cst_0, Cert.ReferenceIdeal.Read.val_main_cst_7, Cert.ReferenceIdeal.Read.val_main_c, Cert.ReferenceIdeal.Read.val_main_c_2, Cert.ReferenceIdeal.Read.val_main_c_3, Cert.ReferenceIdeal.Read.val_main_c_4, Cert.ReferenceIdeal.Read.val_main_c_5, Cert.ReferenceIdeal.Read.val_main_c_6]
  rfl

set_option maxRecDepth 16384 in
set_option maxHeartbeats 40000000 in
/-- The three matrices are the slices W[0], W[1], W[2] — the reference's stages %29, %49, %70 of the weight stack. -/
theorem entry_w0 (c : Dev nD) :
    (V m c main_v67 : S64x64.Idx → EReal)
      = truncf (F := Ideal) .bf16 (Cert.ReferenceIdeal.Read.val_main_v29 (F := Ideal) (m ((c : Thread nD τ).loc main_arg3)) : S64x64.Idx → EReal) bitsLt_bf16_f32 := by
  dsimp only [V, V0]
  simp only [hostOps0, hostOps0_1, hostOps0_2, List.flatten_cons, List.flatten_nil, List.append_nil, List.cons_append, List.nil_append]
  after_results_simp
  rfl

set_option maxRecDepth 16384 in
set_option maxHeartbeats 40000000 in
theorem entry_w1 (c : Dev nD) :
    (V m c main_v70 : S64x64.Idx → EReal)
      = truncf (F := Ideal) .bf16 (Cert.ReferenceIdeal.Read.val_main_v49 (F := Ideal) (m ((c : Thread nD τ).loc main_arg3)) : S64x64.Idx → EReal) bitsLt_bf16_f32 := by
  dsimp only [V, V0]
  simp only [hostOps0, hostOps0_1, hostOps0_2, List.flatten_cons, List.flatten_nil, List.append_nil, List.cons_append, List.nil_append]
  after_results_simp
  rfl

set_option maxRecDepth 16384 in
set_option maxHeartbeats 40000000 in
theorem entry_w2 (c : Dev nD) :
    (V m c main_v73 : S64x64.Idx → EReal)
      = truncf (F := Ideal) .bf16 (Cert.ReferenceIdeal.Read.val_main_v70 (F := Ideal) (m ((c : Thread nD τ).loc main_arg3)) : S64x64.Idx → EReal) bitsLt_bf16_f32 := by
  dsimp only [V, V0]
  simp only [hostOps0, hostOps0_1, hostOps0_2, List.flatten_cons, List.flatten_nil, List.append_nil, List.cons_append, List.nil_append]
  after_results_simp
  rfl

set_option maxRecDepth 16384 in
set_option maxHeartbeats 40000000 in
/-- The last is the bias, as a row. -/
theorem entry_bias (c : Dev nD) :
    (V m c main_v74 : S1x64.Idx → EReal)
      = shapeCast S1x64 ((m ((c : Thread nD τ).loc main_arg4)) : S64.Idx → EReal) shapeCasts_S64_S1x64 := by
  dsimp only [V, V0]
  simp only [hostOps0, hostOps0_1, hostOps0_2, List.flatten_cons, List.flatten_nil, List.append_nil, List.cons_append, List.nil_append]
  after_results_simp
  rfl

end Cert.KernelIdeal.Entry

end
-- ==== Proof.Result.lean ====
/-
  The kernel program's result, as one function of its argument arrays: the Chebyshev combination `Cheb.out` of the input
  signal x, of its propagations T1 and T2 (named by the reference's stages of the same arguments), of the three slices of
  the weight stack and of the bias.

  The region leaves the flattened combination of the seven arrays it found (`Region.final`); the one host line after
  the region reshapes [80000, 64] back to [8, 10000, 64], so entry (b, n, e) of the result is entry (b·10000 + n, e) of
  that array; and row b·10000 + n of a flattened signal is row (b, n) of the signal.
-/
import proofs.«165655_j54185307406514_1_alg».proof.Proof.Region
import proofs.«165655_j54185307406514_1_alg».proof.Proof.Entry
import Idealize.ShloMosaic.Lib.StableHlo.Run
import Idealize.ShloMosaic.Lib.ValueLayout

noncomputable section

namespace Cert.KernelIdeal.Result

open Cert.KernelIdeal Cert.KernelIdeal.Gen Idealize.ShloMosaic Idealize.ShloMosaic.TcCoe Idealize.SL.Sem Idealize.ShloMosaic.StableHlo
open Idealize.ShloMosaic.ValueIdx Cert.Cheb
open Idealize.ShloMosaic.Pipeline (Dat)

variable (m : (ℓ : Loc nD τ sig) → Buf (Elt Ideal) ℓ) (ρ : Dev nD → PrngReg)

/-- Flattening batch and node: row b·10000 + n of the flattened array is row (b, n). -/
theorem flatten_apply {α : Type} (x : S8x10000x64.Idx → α) (b : Fin 8) (n : Fin 10000) (d : Fin 64) (r : Fin 80000)
    (hr : r.val = b.val * 10000 + n.val) :
    shapeCast S80000x64 x shapeCasts_S8x10000x64_S80000x64 (ix2 r d) = x (ix3 b n d) :=
  shapeCast_apply x _ _ _ (by
    rw [Shape.rowMajor_val_three, Shape.rowMajor_val_two]
    show (b.val * 10000 + n.val) * 64 + d.val = r.val * 64 + d.val
    rw [hr])

/-- And back. -/
theorem unflatten_apply {α : Type} (y : S80000x64.Idx → α) (b : Fin 8) (n : Fin 10000) (e : Fin 64) (r : Fin 80000)
    (hr : r.val = b.val * 10000 + n.val) :
    shapeCast S8x10000x64 y shapeCasts_S80000x64_S8x10000x64 (ix3 b n e) = y (ix2 r e) :=
  shapeCast_apply y _ _ _ (by
    rw [Shape.rowMajor_val_two, Shape.rowMajor_val_three]
    show r.val * 64 + e.val = (b.val * 10000 + n.val) * 64 + e.val
    rw [hr])

/-! ## The seven staged arrays, entry by entry -/

/-- A signal flattened and rounded to bf16 — the identity on the extended reals — reads, at row b·10000 + n, the signal at (b, n). -/
theorem flat_signal_at (t : S8x10000x64.Idx → EReal) (a : S80000x64.Idx → EReal)
    (ha : a = truncf (F := Ideal) .bf16 (shapeCast S80000x64 t shapeCasts_S8x10000x64_S80000x64) bitsLt_bf16_f32)
    (b : Fin 8) (n : Fin 10000) (d : Fin 64) (r : Fin 80000) (hr : r.val = b.val * 10000 + n.val) :
    a (ix2 r d) = t (ix3 b n d) := by
  subst ha
  exact flatten_apply t b n d r hr

theorem x_at (c : Dev nD) (b : Fin 8) (n : Fin 10000) (d : Fin 64) (r : Fin 80000) (hr : r.val = b.val * 10000 + n.val) :
    (V m c main_v60 : S80000x64.Idx → EReal) (ix2 r d) = ((m ((c : Thread nD τ).loc main_arg0)) : S8x10000x64.Idx → EReal) (ix3 b n d) :=
  flat_signal_at (m ((c : Thread nD τ).loc main_arg0)) (V m c main_v60) (Entry.entry_x m c) b n d r hr

theorem t1_at (c : Dev nD) (b : Fin 8) (n : Fin 10000) (d : Fin 64) (r : Fin 80000) (hr : r.val = b.val * 10000 + n.val) :
    (V m c main_v62 : S80000x64.Idx → EReal) (ix2 r d) = ((Cert.ReferenceIdeal.Read.val_main_v47 (F := Ideal) (m ((c : Thread nD τ).loc main_arg0)) (m ((c : Thread nD τ).loc main_arg1)) (m ((c : Thread nD τ).loc main_arg2))) : S8x10000x64.Idx → EReal) (ix3 b n d) :=
  flat_signal_at (Cert.ReferenceIdeal.Read.val_main_v47 (F := Ideal) (m ((c : Thread nD τ).loc main_arg0)) (m ((c : Thread nD τ).loc main_arg1)) (m ((c : Thread nD τ).loc main_arg2))) (V m c main_v62) (Entry.entry_t1 m c) b n d r hr

theorem t2_at (c : Dev nD) (b : Fin 8) (n : Fin 10000) (d : Fin 64) (r : Fin 80000) (hr : r.val = b.val * 10000 + n.val) :
    (V m c main_v64 : S80000x64.Idx → EReal) (ix2 r d) = ((Cert.ReferenceIdeal.Read.val_main_v68 (F := Ideal) (m ((c : Thread nD τ).loc main_arg0)) (m ((c : Thread nD τ).loc main_arg1)) (m ((c : Thread nD τ).loc main_arg2))) : S8x10000x64.Idx → EReal) (ix3 b n d) :=
  flat_signal_at (Cert.ReferenceIdeal.Read.val_main_v68 (F := Ideal) (m ((c : Thread nD τ).loc main_arg0)) (m ((c : Thread nD τ).loc main_arg1)) (m ((c : Thread nD τ).loc main_arg2))) (V m c main_v64) (Entry.entry_t2 m c) b n d r hr

theorem w0_at (c : Dev nD) (d e : Fin 64) :
    (V m c main_v67 : S64x64.Idx → EReal) (ix2 d e) = ((Cert.ReferenceIdeal.Read.val_main_v29 (F := Ideal) (m ((c : Thread nD τ).loc main_arg3))) : S64x64.Idx → EReal) (ix2 d e) :=
  congrFun (Entry.entry_w0 m c) (ix2 d e)

theorem w1_at (c : Dev nD) (d e : Fin 64) :
    (V m c main_v70 : S64x64.Idx → EReal) (ix2 d e) = ((Cert.ReferenceIdeal.Read.val_main_v49 (F := Ideal) (m ((c : Thread nD τ).loc main_arg3))) : S64x64.Idx → EReal) (ix2 d e) :=
  congrFun (Entry.entry_w1 m c) (ix2 d e)

theorem w2_at (c : Dev nD) (d e : Fin 64) :
    (V m c main_v73 : S64x64.Idx → EReal) (ix2 d e) = ((Cert.ReferenceIdeal.Read.val_main_v70 (F := Ideal) (m ((c : Thread nD τ).loc main_arg3))) : S64x64.Idx → EReal) (ix2 d e) :=
  congrFun (Entry.entry_w2 m c) (ix2 d e)

theorem bias_at (c : Dev nD) (e : Fin 64) :
    (V m c main_v74 : S1x64.Idx → EReal) (ix2 (0 : Fin 1) e) = ((m ((c : Thread nD τ).loc main_arg4)) : S64.Idx → EReal) (ix1 e) :=
  (congrFun (Entry.entry_bias m c) (ix2 (0 : Fin 1) e)).trans (shapeCast_a_1a_apply _ shapeCasts_S64_S1x64 0 e)

/-- The flattened combination of the staged arrays, reshaped back, is the combination of the arguments. -/
theorem result_eq (c : Dev nD) :
    shapeCast S8x10000x64 (flat (V m c main_v60) (V m c main_v62) (V m c main_v64) (V m c main_v67) (V m c main_v70) (V m c main_v73) (V m c main_v74)) shapeCasts_S80000x64_S8x10000x64
      = out (m ((c : Thread nD τ).loc main_arg0)) (Cert.ReferenceIdeal.Read.val_main_v47 (F := Ideal) (m ((c : Thread nD τ).loc main_arg0)) (m ((c : Thread nD τ).loc main_arg1)) (m ((c : Thread nD τ).loc main_arg2))) (Cert.ReferenceIdeal.Read.val_main_v68 (F := Ideal) (m ((c : Thread nD τ).loc main_arg0)) (m ((c : Thread nD τ).loc main_arg1)) (m ((c : Thread nD τ).loc main_arg2))) (Cert.ReferenceIdeal.Read.val_main_v29 (F := Ideal) (m ((c : Thread nD τ).loc main_arg3))) (Cert.ReferenceIdeal.Read.val_main_v49 (F := Ideal) (m ((c : Thread nD τ).loc main_arg3))) (Cert.ReferenceIdeal.Read.val_main_v70 (F := Ideal) (m ((c : Thread nD τ).loc main_arg3))) (m ((c : Thread nD τ).loc main_arg4)) := by
  funext i
  obtain ⟨b, n, e, rfl⟩ : ∃ (b : Fin 8) (n : Fin 10000) (e : Fin 64), i = ix3 b n e := ⟨i 0, i 1, i 2, eq_ix3 i⟩
  have hb := b.isLt
  have hn := n.isLt
  let r : Fin 80000 := ⟨b.val * 10000 + n.val, by omega⟩
  have hr : r.val = b.val * 10000 + n.val := rfl
  rw [unflatten_apply _ b n e r hr, flat_ix2, out_ix3]
  unfold flatAt outAt term
  refine congrArg₂ (· + ·) (congrArg₂ (· + ·) (congrArg₂ (· + ·) ?_ ?_) ?_) ?_
  · exact Finset.sum_congr rfl fun d _ => by rw [x_at m c b n d r hr, w0_at m c d e]
  · exact Finset.sum_congr rfl fun d _ => by rw [t1_at m c b n d r hr, w1_at m c d e]
  · exact Finset.sum_congr rfl fun d _ => by rw [t2_at m c b n d r hr, w2_at m c d e]
  · exact bias_at m c e

/-- The host line after the region: the program's result is the region's output array, reshaped. -/
theorem tail_eq (c : Dev nD) :
    Pipeline.afterTail₀ cfgs (dats m) 0 (V0 m) [hostOps1] c main_v76
      = shapeCast S8x10000x64 (flat (V m c main_v60) (V m c main_v62) (V m c main_v64) (V m c main_v67) (V m c main_v70) (V m c main_v73) (V m c main_v74)) shapeCasts_S80000x64_S8x10000x64 := by
  unfold Pipeline.afterTail₀
  show StableHlo.after hostOps1 _ (Proc.devRef .tc main_v76) = _
  after_results
  funext i
  show shapeCast S8x10000x64 (Pipeline.withArrays (cfgs 0).spec c (V0 m c) (fun w => (dats m 0 c).arrAt w (cfgs 0).N) (Proc.devRef .tc main_v75) : S80000x64.Idx → EReal)
    shapeCasts_S80000x64_S8x10000x64 i = _
  refine congrFun (congrArg (fun y : S80000x64.Idx → EReal => shapeCast S8x10000x64 y shapeCasts_S80000x64_S8x10000x64) ?_) i
  exact (Pipeline.withArrays_arr spec0 launch0.win.arr_inj c _ _ 7).trans (Region.final m c)

/-- THE RUN, READ: every weakly fair execution of the kernel program ends with its result at the combination of the
    arguments and the arguments unchanged. -/
theorem run : θ_run defs (onTc (τ := τ) (main (F := Ideal))) ⟨m, fun _ => 0, ρ⟩ fun r => ∀ c : Dev nD,
      r.2.mem ((c : Thread nD τ).loc main_v76) = out (m ((c : Thread nD τ).loc main_arg0)) (Cert.ReferenceIdeal.Read.val_main_v47 (F := Ideal) (m ((c : Thread nD τ).loc main_arg0)) (m ((c : Thread nD τ).loc main_arg1)) (m ((c : Thread nD τ).loc main_arg2))) (Cert.ReferenceIdeal.Read.val_main_v68 (F := Ideal) (m ((c : Thread nD τ).loc main_arg0)) (m ((c : Thread nD τ).loc main_arg1)) (m ((c : Thread nD τ).loc main_arg2))) (Cert.ReferenceIdeal.Read.val_main_v29 (F := Ideal) (m ((c : Thread nD τ).loc main_arg3))) (Cert.ReferenceIdeal.Read.val_main_v49 (F := Ideal) (m ((c : Thread nD τ).loc main_arg3))) (Cert.ReferenceIdeal.Read.val_main_v70 (F := Ideal) (m ((c : Thread nD τ).loc main_arg3))) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v76 (Pipeline.mem_restRefs_of main_v76 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.RefValue.lean ====
/-
  The reference's result is the Chebyshev combination `Cheb.out` of the input signal, of its own two propagated signals
  (its stages %47 and %68, kept closed) and of the three slices of the weight stack, plus the bias.

  The reference adds the bias right after the first product, ((x·W0 + bias) + T1·W1) + T2·W2; on the extended reals that is
  the same sum as ((x·W0 + T1·W1) + T2·W2) + bias (`Cheb.add_bias_first`).
-/
import proofs.«165655_j54185307406514_1_alg».proof.Proof.Gen.ReferenceIdeal.Read
import proofs.«165655_j54185307406514_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Cheb

theorem lidx30 (b : Fin 8) (n : Fin 10000) (e : Fin 64) (k : Fin 64) : lidx_main_v30 (ix3 b n e) k = ix3 b n k :=
  funext fun a => Fin.ext (by match a with | ⟨0, _⟩ => rfl | ⟨1, _⟩ => rfl | ⟨2, _⟩ => rfl)
theorem ridx30 (b : Fin 8) (n : Fin 10000) (e : Fin 64) (k : Fin 64) : ridx_main_v30 (ix3 b n e) k = ix2 k e :=
  funext fun a => Fin.ext (by match a with | ⟨0, _⟩ => rfl | ⟨1, _⟩ => rfl)
/-- The contraction the reference's product %30 reads at (b, n, e) is the sum over d of signal[b, n, d] · matrix[d, e]. -/
theorem dot30 (t : SX.Idx → EReal) (w : SM.Idx → EReal) (b : Fin 8) (n : Fin 10000) (e : Fin 64) :
    (∑ k : Fin 64, t (lidx_main_v30 (ix3 b n e) k) * w (ridx_main_v30 (ix3 b n e) k)) = term t w b n e :=
  Finset.sum_congr rfl fun k _ => by rw [lidx30, ridx30]

theorem lidx50 (b : Fin 8) (n : Fin 10000) (e : Fin 64) (k : Fin 64) : lidx_main_v50 (ix3 b n e) k = ix3 b n k :=
  funext fun a => Fin.ext (by match a with | ⟨0, _⟩ => rfl | ⟨1, _⟩ => rfl | ⟨2, _⟩ => rfl)
theorem ridx50 (b : Fin 8) (n : Fin 10000) (e : Fin 64) (k : Fin 64) : ridx_main_v50 (ix3 b n e) k = ix2 k e :=
  funext fun a => Fin.ext (by match a with | ⟨0, _⟩ => rfl | ⟨1, _⟩ => rfl)
/-- The contraction the reference's product %50 reads at (b, n, e) is the sum over d of signal[b, n, d] · matrix[d, e]. -/
theorem dot50 (t : SX.Idx → EReal) (w : SM.Idx → EReal) (b : Fin 8) (n : Fin 10000) (e : Fin 64) :
    (∑ k : Fin 64, t (lidx_main_v50 (ix3 b n e) k) * w (ridx_main_v50 (ix3 b n e) k)) = term t w b n e :=
  Finset.sum_congr rfl fun k _ => by rw [lidx50, ridx50]

theorem lidx71 (b : Fin 8) (n : Fin 10000) (e : Fin 64) (k : Fin 64) : lidx_main_v71 (ix3 b n e) k = ix3 b n k :=
  funext fun a => Fin.ext (by match a with | ⟨0, _⟩ => rfl | ⟨1, _⟩ => rfl | ⟨2, _⟩ => rfl)
theorem ridx71 (b : Fin 8) (n : Fin 10000) (e : Fin 64) (k : Fin 64) : ridx_main_v71 (ix3 b n e) k = ix2 k e :=
  funext fun a => Fin.ext (by match a with | ⟨0, _⟩ => rfl | ⟨1, _⟩ => rfl)
/-- The contraction the reference's product %71 reads at (b, n, e) is the sum over d of signal[b, n, d] · matrix[d, e]. -/
theorem dot71 (t : SX.Idx → EReal) (w : SM.Idx → EReal) (b : Fin 8) (n : Fin 10000) (e : Fin 64) :
    (∑ k : Fin 64, t (lidx_main_v71 (ix3 b n e) k) * w (ridx_main_v71 (ix3 b n e) k)) = term t w b n e :=
  Finset.sum_congr rfl fun k _ => by rw [lidx71, ridx71]

/-- The bias broadcast over batch and node reads, at (b, n, e), the bias at e. -/
theorem bias_idx (b : Fin 8) (n : Fin 10000) (e : Fin 64) : idx_main_v31 (idx_main_v32 (ix3 b n e)) = ix1 e :=
  funext fun a => Fin.ext (by match a with | ⟨0, _⟩ => rfl)

theorem ref_is_out (x0 : (⟨S8x10000x64, .f32⟩ : BufTy).Contents (Elt Ideal)) (x1 : (⟨S2x320000, .i32⟩ : BufTy).Contents (Elt Ideal))
    (x2 : (⟨S320000, .f32⟩ : BufTy).Contents (Elt Ideal)) (x3 : (⟨S3x64x64, .f32⟩ : BufTy).Contents (Elt Ideal))
    (x4 : (⟨S64, .f32⟩ : BufTy).Contents (Elt Ideal)) :
    val_main_v72 (F := Ideal) x0 x1 x2 x3 x4
      = out x0 (val_main_v47 (F := Ideal) x0 x1 x2) (val_main_v68 (F := Ideal) x0 x1 x2)
          (val_main_v29 (F := Ideal) x3) (val_main_v49 (F := Ideal) x3) (val_main_v70 (F := Ideal) x3) x4 := by
  funext i
  obtain ⟨b, n, e, rfl⟩ : ∃ (b : Fin 8) (n : Fin 10000) (e : Fin 64), i = ix3 b n e := ⟨i 0, i 1, i 2, eq_ix3 i⟩
  rw [out_ix3, val_main_v72_apply, val_main_v51_apply, val_main_v33_apply, val_main_v71_apply, val_main_v50_apply,
    val_main_v30_apply, val_main_v32_apply, val_main_v31_apply, bias_idx, dot30, dot50, dot71]
  exact add_bias_first _ _ _ _

end Cert.ReferenceIdeal.RefValue

end
-- ==== Proof.lean ====
/-
  A batched Chebyshev graph convolution of order three, kernel against reference, over the extended reals.

  Both programs build the edge weights norm = −(deg^(−1/2)[row] · w · deg^(−1/2)[col]) and the propagated signals
  T1 = prop(x), T2 = 2·prop(T1) − x by the same host lines (a scatter-add of gathered rows scaled by norm). The kernel
  program then flattens batch and node, multiplies blocks of 16000 rows of x, T1, T2 by the three 64 × 64 slices of the
  weight stack on a grid of five points, adds the three products and then the bias, and reshapes back; the reference
  takes the three products on the unflattened signals and adds the bias right after the first. At every (b, n, e) both are
      Σ_d x[b,n,d]·W[0,d,e] + Σ_d T1[b,n,d]·W[1,d,e] + Σ_d T2[b,n,d]·W[2,d,e] + bias[e],
  the terms added in a different order; addition on the extended reals is commutative and associative, so the two
  results are equal whatever the inputs, and the precondition is never opened. Rounding to bf16 before the kernel's
  products is the identity on the extended reals. The sparse propagation is never opened either: T1 and T2 enter both
  sides as the same two functions of the arguments.
-/
import proofs.«165655_j54185307406514_1_alg».proof.Defs
import proofs.«165655_j54185307406514_1_alg».proof.Proof.Gen.Kernel
import proofs.«165655_j54185307406514_1_alg».proof.Proof.Gen.Kernel.Skeleton
import proofs.«165655_j54185307406514_1_alg».proof.Proof.Gen.Kernel.Launch
import proofs.«165655_j54185307406514_1_alg».proof.Proof.Gen.Kernel.Points
import proofs.«165655_j54185307406514_1_alg».proof.Proof.Gen.Kernel.Frame
import proofs.«165655_j54185307406514_1_alg».proof.Proof.Gen.KernelIdeal
import proofs.«165655_j54185307406514_1_alg».proof.Proof.Gen.KernelIdeal.Skeleton
import proofs.«165655_j54185307406514_1_alg».proof.Proof.Gen.KernelIdeal.Launch
import proofs.«165655_j54185307406514_1_alg».proof.Proof.Gen.KernelIdeal.Points
import proofs.«165655_j54185307406514_1_alg».proof.Proof.Gen.KernelIdeal.Frame
import proofs.«165655_j54185307406514_1_alg».proof.Proof.Gen.ReferenceIdeal
import proofs.«165655_j54185307406514_1_alg».proof.Proof.Gen.ReferenceIdeal.Run
import proofs.«165655_j54185307406514_1_alg».proof.Proof.Gen.ReferenceIdeal.Read
import proofs.«165655_j54185307406514_1_alg».proof.Proof.Gen.Pre_finite_inputs
import proofs.«165655_j54185307406514_1_alg».proof.Proof.Result
import proofs.«165655_j54185307406514_1_alg».proof.Proof.RefValue
import Idealize.ShloMosaic.Adequacy
import Idealize.ShloMosaic.Init

noncomputable section

namespace Cert.Proof

open Idealize.ShloMosaic Idealize.SL.Sem Cert.Kernel

/-- The word-level kernel program runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the Chebyshev combination of the same arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v72_eq, Cert.ReferenceIdeal.RefValue.ref_is_out, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
